-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x512 : Shape := ⟨3, ![32, 512, 512]⟩
abbrev S_ : Shape := ⟨0, ![]⟩

class Facts : Prop where
  bcast_S_S32x512x512 : S_.BroadcastsInDim S32x512x512 (![] : Fin 0 → Fin S32x512x512.rank)
  reducesTo_S32x512x512_S_d0_1_2 : S32x512x512.ReducesTo [0, 1, 2] S_
  h_S_ : 0 < S_.numel

variable [Facts]

def fn_part1 {F : FTy → Type} [FloatOps F] (main_arg4 : FVec F S32x512x512 .f32) (main_arg5 : FVec F S32x512x512 .f32) (main_arg6 : FVec F S32x512x512 .f32) (main_v13 : IVec S_ 1) (main_v16 : IVec S32x512x512 1) : IVec S_ 1 :=
  let main_c_5 : IVec S_ 1 := constantI S_ 1 1#1
  let main_v17 : IVec S_ 1 := (fun x v => Host.reduce IntOp.andi x v reducesTo_S32x512x512_S_d0_1_2 h_S_) main_v16 main_c_5
  let main_v18 : IVec S_ 1 := andi main_v13 main_v17
  let main_v19 : FVec F S32x512x512 .f32 := Host.absf main_arg4
  let main_cst_6 : FVec F S_ .f32 := constant S_ .f32 0x7F800000#32
  let main_v20 : FVec F S32x512x512 .f32 := broadcastInDim S32x512x512 ![] bcast_S_S32x512x512 main_cst_6
  let main_v21 : IVec S32x512x512 1 := cmpf .olt main_v19 main_v20
  let main_c_7 : IVec S_ 1 := constantI S_ 1 1#1
  let main_v22 : IVec S_ 1 := (fun x v => Host.reduce IntOp.andi x v reducesTo_S32x512x512_S_d0_1_2 h_S_) main_v21 main_c_7
  let main_v23 : IVec S_ 1 := andi main_v18 main_v22
  let main_v24 : FVec F S32x512x512 .f32 := Host.absf main_arg5
  let main_cst_8 : FVec F S_ .f32 := constant S_ .f32 0x7F800000#32
  let main_v25 : FVec F S32x512x512 .f32 := broadcastInDim S32x512x512 ![] bcast_S_S32x512x512 main_cst_8
  let main_v26 : IVec S32x512x512 1 := cmpf .olt main_v24 main_v25
  let main_c_9 : IVec S_ 1 := constantI S_ 1 1#1
  let main_v27 : IVec S_ 1 := (fun x v => Host.reduce IntOp.andi x v reducesTo_S32x512x512_S_d0_1_2 h_S_) main_v26 main_c_9
  let main_v28 : IVec S_ 1 := andi main_v23 main_v27
  let main_v29 : FVec F S32x512x512 .f32 := Host.absf main_arg6
  let main_cst_10 : FVec F S_ .f32 := constant S_ .f32 0x7F800000#32
  let main_v30 : FVec F S32x512x512 .f32 := broadcastInDim S32x512x512 ![] bcast_S_S32x512x512 main_cst_10
  let main_v31 : IVec S32x512x512 1 := cmpf .olt main_v29 main_v30
  let main_c_11 : IVec S_ 1 := constantI S_ 1 1#1
  let main_v32 : IVec S_ 1 := (fun x v => Host.reduce IntOp.andi x v reducesTo_S32x512x512_S_d0_1_2 h_S_) main_v31 main_c_11
  let main_v33 : IVec S_ 1 := andi main_v28 main_v32
  main_v33

def fn {F : FTy → Type} [FloatOps F] (main_arg0 : FVec F S32x512x512 .f32) (main_arg1 : FVec F S32x512x512 .f32) (main_arg2 : FVec F S32x512x512 .f32) (main_arg3 : FVec F S32x512x512 .f32) (main_arg4 : FVec F S32x512x512 .f32) (main_arg5 : FVec F S32x512x512 .f32) (main_arg6 : FVec F S32x512x512 .f32) : IVec S_ 1 :=
  let main_v0 : FVec F S32x512x512 .f32 := Host.absf main_arg0
  let main_cst : FVec F S_ .f32 := constant S_ .f32 0x7F800000#32
  let main_v1 : FVec F S32x512x512 .f32 := broadcastInDim S32x512x512 ![] bcast_S_S32x512x512 main_cst
  let main_v2 : IVec S32x512x512 1 := cmpf .olt main_v0 main_v1
  let main_c : IVec S_ 1 := constantI S_ 1 1#1
  let main_v3 : IVec S_ 1 := (fun x v => Host.reduce IntOp.andi x v reducesTo_S32x512x512_S_d0_1_2 h_S_) main_v2 main_c
  let main_v4 : FVec F S32x512x512 .f32 := Host.absf main_arg1
  let main_cst_0 : FVec F S_ .f32 := constant S_ .f32 0x7F800000#32
  let main_v5 : FVec F S32x512x512 .f32 := broadcastInDim S32x512x512 ![] bcast_S_S32x512x512 main_cst_0
  let main_v6 : IVec S32x512x512 1 := cmpf .olt main_v4 main_v5
  let main_c_1 : IVec S_ 1 := constantI S_ 1 1#1
  let main_v7 : IVec S_ 1 := (fun x v => Host.reduce IntOp.andi x v reducesTo_S32x512x512_S_d0_1_2 h_S_) main_v6 main_c_1
  let main_v8 : IVec S_ 1 := andi main_v3 main_v7
  let main_v9 : FVec F S32x512x512 .f32 := Host.absf main_arg2
  let main_cst_2 : FVec F S_ .f32 := constant S_ .f32 0x7F800000#32
  let main_v10 : FVec F S32x512x512 .f32 := broadcastInDim S32x512x512 ![] bcast_S_S32x512x512 main_cst_2
  let main_v11 : IVec S32x512x512 1 := cmpf .olt main_v9 main_v10
  let main_c_3 : IVec S_ 1 := constantI S_ 1 1#1
  let main_v12 : IVec S_ 1 := (fun x v => Host.reduce IntOp.andi x v reducesTo_S32x512x512_S_d0_1_2 h_S_) main_v11 main_c_3
  let main_v13 : IVec S_ 1 := andi main_v8 main_v12
  let main_v14 : FVec F S32x512x512 .f32 := Host.absf main_arg3
  let main_cst_4 : FVec F S_ .f32 := constant S_ .f32 0x7F800000#32
  let main_v15 : FVec F S32x512x512 .f32 := broadcastInDim S32x512x512 ![] bcast_S_S32x512x512 main_cst_4
  let main_v16 : IVec S32x512x512 1 := cmpf .olt main_v14 main_v15
  fn_part1 (F := F) main_arg4 main_arg5 main_arg6 main_v13 main_v16
-- ==== Kernel.lean ====
abbrev S32x512x512 : Shape := ⟨3, ![32, 512, 512]⟩
abbrev S32x1x128 : Shape := ⟨3, ![32, 1, 128]⟩
abbrev S1x512x512 : Shape := ⟨3, ![1, 512, 512]⟩
abbrev S1x1x128 : Shape := ⟨3, ![1, 1, 128]⟩
abbrev S512x512 : Shape := ⟨2, ![512, 512]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1x1x1 : Shape := ⟨3, ![1, 1, 1]⟩
abbrev S32x1x1 : Shape := ⟨3, ![32, 1, 1]⟩
abbrev S32 : Shape := ⟨1, ![32]⟩
abbrev S_ : Shape := ⟨0, ![]⟩

abbrev nBuf : Space → Nat
  | .hbm => 20
  | .vmem => 18
  | .smem => 0
  | _ => 0

abbrev bufTy : (tb : Table) → Fin (tcTables nBuf tb) → BufTy
  | .hbm, ⟨0, _⟩ => ⟨S32x512x512, .f32⟩
  | .hbm, ⟨1, _⟩ => ⟨S32x512x512, .f32⟩
  | .hbm, ⟨2, _⟩ => ⟨S32x512x512, .f32⟩
  | .hbm, ⟨3, _⟩ => ⟨S32x512x512, .f32⟩
  | .hbm, ⟨4, _⟩ => ⟨S32x512x512, .f32⟩
  | .hbm, ⟨5, _⟩ => ⟨S32x512x512, .f32⟩
  | .hbm, ⟨6, _⟩ => ⟨S32x512x512, .f32⟩
  | .hbm, ⟨7, _⟩ => ⟨S32x1x128, .f32⟩
  | .hbm, ⟨8, _⟩ => ⟨S32x1x128, .f32⟩
  | .hbm, ⟨9, _⟩ => ⟨S32x1x1, .f32⟩
  | .hbm, ⟨10, _⟩ => ⟨S32, .f32⟩
  | .hbm, ⟨11, _⟩ => ⟨S_, .f32⟩
  | .hbm, ⟨12, _⟩ => ⟨S_, .f32⟩
  | .hbm, ⟨13, _⟩ => ⟨S32x1x1, .f32⟩
  | .hbm, ⟨14, _⟩ => ⟨S32, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x1x128, .f32⟩
  | .local _ .vmem, ⟨15, _⟩ => ⟨S1x1x128, .f32⟩
  | .local _ .vmem, ⟨16, _⟩ => ⟨S1x1x128, .f32⟩
  | .local _ .vmem, ⟨17, _⟩ => ⟨S1x1x128, .f32⟩
  | _, _ => ⟨S32x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  reduces_S512x512_S512 : S512x512.Reduces [1] S512
  shapeCasts_S512_S512x1 : S512.ShapeCasts S512x1
  reduces_S512x1_S1 : S512x1.Reduces [0] S1
  shapeCasts_S1_S1x1 : S1.ShapeCasts S1x1
  broadcasts_S1x1_S512x512 : S1x1.Broadcasts S512x512
  shapeCasts_S1x1_S1x1x1 : S1x1.ShapeCasts S1x1x1
  shapeCasts_S1x1x1_S1x1x1 : S1x1x1.ShapeCasts S1x1x1
  broadcasts_S1x1x1_S1x1x128 : S1x1x1.Broadcasts S1x1x128
  inb_S1x1x128_S1x1x128_0_0_0 : ∀ a, (![0, 0, 0] : Fin 3 → Nat) a + S1x1x128.size a ≤ S1x1x128.size a
  h_S1x1x128 : 0 < S1x1x128.numel
  slices_S32x1x128_S32x1x1_0_0_0 : S32x1x128.Slices ![0, 0, 0] S32x1x1
  shapeCasts_S32x1x1_S32 : S32x1x1.ShapeCasts S32
  reducesTo_S32_S_d0 : S32.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S32x512x512.size a
  hwx0_0 : ∀ i : grid0.Coords, EltTy.bits .f32 = 32 ∨ (Rect.block (s := S32x512x512) S1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S32x512x512.size a
  hwx0_1 : ∀ i : grid0.Coords, EltTy.bits .f32 = 32 ∨ (Rect.block (s := S32x512x512) S1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x512.size a ≤ S32x512x512.size a
  hwx0_2 : ∀ i : grid0.Coords, EltTy.bits .f32 = 32 ∨ (Rect.block (s := S32x512x512) S1x512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x512.size a ≤ S32x512x512.size a
  hwx0_3 : ∀ i : grid0.Coords, EltTy.bits .f32 = 32 ∨ (Rect.block (s := S32x512x512) S1x512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x512.size a ≤ S32x512x512.size a
  hwx0_4 : ∀ i : grid0.Coords, EltTy.bits .f32 = 32 ∨ (Rect.block (s := S32x512x512) S1x512x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x512.size a ≤ S32x512x512.size a
  hwx0_5 : ∀ i : grid0.Coords, EltTy.bits .f32 = 32 ∨ (Rect.block (s := S32x512x512) S1x512x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x512.size a ≤ S32x512x512.size a
  hwx0_6 : ∀ i : grid0.Coords, EltTy.bits .f32 = 32 ∨ (Rect.block (s := S32x512x512) S1x512x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x128.size a ≤ S32x1x128.size a
  hwx0_7 : ∀ i : grid0.Coords, EltTy.bits .f32 = 32 ∨ (Rect.block (s := S32x1x128) S1x1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x128.size a ≤ S32x1x128.size a
  hwx0_8 : ∀ i : grid0.Coords, EltTy.bits .f32 = 32 ∨ (Rect.block (s := S32x1x128) S1x1x128.size (cc0_transform_8 i) (hinb0_8 i)).WholeWords (EltTy.packing .f32)

variable [Facts₀]

abbrev win0_0 : Pipeline.Window sig grid0 :=
  Pipeline.Window.ofSpec (Memref.whole main_arg0) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x512x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x512x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x512x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_0) S1x1x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_1) S1x1x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S32x512x512 : Shape := ⟨3, ![32, 512, 512]⟩
abbrev S_ : Shape := ⟨0, ![]⟩
abbrev S32x262144 : Shape := ⟨2, ![32, 262144]⟩
abbrev S32 : Shape := ⟨1, ![32]⟩
abbrev S32x1x1 : Shape := ⟨3, ![32, 1, 1]⟩

abbrev nBuf : Space → Nat
  | .hbm => 41
  | .vmem => 0
  | .smem => 0
  | _ => 0

abbrev bufTy : (tb : Table) → Fin (tcTables nBuf tb) → BufTy
  | .hbm, ⟨0, _⟩ => ⟨S32x512x512, .f32⟩
  | .hbm, ⟨1, _⟩ => ⟨S32x512x512, .f32⟩
  | .hbm, ⟨2, _⟩ => ⟨S32x512x512, .f32⟩
  | .hbm, ⟨3, _⟩ => ⟨S32x512x512, .f32⟩
  | .hbm, ⟨4, _⟩ => ⟨S32x512x512, .f32⟩
  | .hbm, ⟨5, _⟩ => ⟨S32x512x512, .f32⟩
  | .hbm, ⟨6, _⟩ => ⟨S32x512x512, .f32⟩
  | .hbm, ⟨7, _⟩ => ⟨S_, .f32⟩
  | .hbm, ⟨8, _⟩ => ⟨S32x512x512, .f32⟩
  | .hbm, ⟨9, _⟩ => ⟨S32x512x512, .i1⟩
  | .hbm, ⟨10, _⟩ => ⟨S_, .f32⟩
  | .hbm, ⟨11, _⟩ => ⟨S32x512x512, .f32⟩
  | .hbm, ⟨12, _⟩ => ⟨S32x512x512, .f32⟩
  | .hbm, ⟨13, _⟩ => ⟨S32x512x512, .f32⟩
  | .hbm, ⟨14, _⟩ => ⟨S32x512x512, .f32⟩
  | .hbm, ⟨15, _⟩ => ⟨S32x512x512, .f32⟩
  | .hbm, ⟨16, _⟩ => ⟨S32x512x512, .f32⟩
  | .hbm, ⟨17, _⟩ => ⟨S32x512x512, .f32⟩
  | .hbm, ⟨18, _⟩ => ⟨S32x512x512, .f32⟩
  | .hbm, ⟨19, _⟩ => ⟨S32x512x512, .f32⟩
  | .hbm, ⟨20, _⟩ => ⟨S32x262144, .f32⟩
  | .hbm, ⟨21, _⟩ => ⟨S_, .f32⟩
  | .hbm, ⟨22, _⟩ => ⟨S32, .f32⟩
  | .hbm, ⟨23, _⟩ => ⟨S_, .f32⟩
  | .hbm, ⟨24, _⟩ => ⟨S32x512x512, .f32⟩
  | .hbm, ⟨25, _⟩ => ⟨S32x512x512, .i1⟩
  | .hbm, ⟨26, _⟩ => ⟨S32x1x1, .f32⟩
  | .hbm, ⟨27, _⟩ => ⟨S32x512x512, .f32⟩
  | .hbm, ⟨28, _⟩ => ⟨S32x512x512, .i1⟩
  | .hbm, ⟨29, _⟩ => ⟨S32x512x512, .i1⟩
  | .hbm, ⟨30, _⟩ => ⟨S32x512x512, .f32⟩
  | .hbm, ⟨31, _⟩ => ⟨S32x512x512, .f32⟩
  | .hbm, ⟨32, _⟩ => ⟨S32x512x512, .f32⟩
  | .hbm, ⟨33, _⟩ => ⟨S_, .f32⟩
  | .hbm, ⟨34, _⟩ => ⟨S_, .f32⟩
  | .hbm, ⟨35, _⟩ => ⟨S32x512x512, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | _, _ => ⟨S32x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]

class Facts₀ : Prop where
  bcast_S_S32x512x512 : S_.BroadcastsInDim S32x512x512 (![] : Fin 0 → Fin S32x512x512.rank)
  shapeCasts_S32x512x512_S32x262144 : S32x512x512.ShapeCasts S32x262144
  reducesTo_S32x262144_S32_d1 : S32x262144.ReducesTo [1] S32
  h_S_ : 0 < S_.numel
  bcast_S32_S32x1x1_0 : S32.BroadcastsInDim S32x1x1 (![0] : Fin 1 → Fin S32x1x1.rank)
  bcast_S32x1x1_S32x512x512_0_1_2 : S32x1x1.BroadcastsInDim S32x512x512 (![0, 1, 2] : Fin 3 → Fin S32x512x512.rank)
  reducesTo_S32x512x512_S_d0_1_2 : S32x512x512.ReducesTo [0, 1, 2] S_

variable [Facts₀]

class Facts : Prop extends Facts₀ where

variable [Facts]
-- ==== Proof.MinedLoss.lean ====
/-
  The loss both programs compute, written once over the seven argument arrays (32 samples of 512 × 512 pixels).

  At a pixel the gated confidence is the confidence where it is at least one half and zero elsewhere, and the pixel's
  loss is (|region_true − region_pred| + |affinity_true − affinity_pred|) times the gated confidence.  A sample's peak is the
  largest background-masked loss over its 512 × 512 pixels.  A pixel is a hard background pixel when its background mask
  is positive and its background-masked loss reaches its sample's peak; its weight is that indicator plus the foreground
  mask.  The result is the weighted sum of the losses over the weighted sum of the gated confidences plus a constant,
  every sum taken sample by sample, row by row.
  Also here: the indicator of a one-bit word, read as a float, is the choice between one and zero on that bit.
-/
import Idealize.ShloMosaic.PureOps.Ideal
import Idealize.ShloMosaic.PureOps.Ideal.Laws
import Idealize.ShloMosaic.Lib.ValueIdx

noncomputable section

namespace Cert.MinedLoss

open Idealize.ShloMosaic Idealize.ShloMosaic.ValueIdx

/-- An argument array: 32 samples of 512 × 512 extended reals. -/
abbrev Arr : Type := (⟨3, ![32, 512, 512]⟩ : Shape).Idx → EReal

/-- The confidence where it is at least one half, zero elsewhere. -/
def gate (x : EReal) : EReal :=
  Scalar.select (FloatOps.cmpf (F := Ideal) (φ := .f32) .oge x (Ideal.ofBits .f32 0x3F000000#32)) x (Ideal.ofBits .f32 0x00000000#32)

/-- A pixel's loss from its five entries. -/
def pixLoss (x0 x1 x2 x3 x4 : EReal) : EReal :=
  (FloatOps.absf (F := Ideal) (φ := .f32) (x0 - x2) + FloatOps.absf (F := Ideal) (φ := .f32) (x1 - x3)) * gate x4

variable (a0 a1 a2 a3 a4 a5 a6 : Arr)

/-- The loss at a pixel of the arrays. -/
def lossAt (b : Fin 32) (r c : Fin 512) : EReal :=
  pixLoss (a0 (ix3 b r c)) (a1 (ix3 b r c)) (a2 (ix3 b r c)) (a3 (ix3 b r c)) (a4 (ix3 b r c))

/-- The background-masked loss at a pixel. -/
def bgLossAt (b : Fin 32) (r c : Fin 512) : EReal := lossAt a0 a1 a2 a3 a4 b r c * a6 (ix3 b r c)

/-- A sample's largest background-masked loss. -/
def peak (b : Fin 32) : EReal := ⨆ (r : Fin 512) (c : Fin 512), bgLossAt a0 a1 a2 a3 a4 a6 b r c

/-- The one-bit word saying a pixel is a hard background pixel. -/
def hardBit (b : Fin 32) (r c : Fin 512) : BitVec 1 :=
  IntOp.andi (FloatOps.cmpf (F := Ideal) (φ := .f32) .ogt (a6 (ix3 b r c)) (Ideal.ofBits .f32 0x00000000#32))
    (FloatOps.cmpf (F := Ideal) (φ := .f32) .oge (bgLossAt a0 a1 a2 a3 a4 a6 b r c) (peak a0 a1 a2 a3 a4 a6 b))

/-- A pixel's weight: the hard-background indicator plus the foreground mask. -/
def weightAt (b : Fin 32) (r c : Fin 512) : EReal :=
  FloatOps.uitofp (F := Ideal) .f32 (hardBit a0 a1 a2 a3 a4 a6 b r c) + a5 (ix3 b r c)

/-- A sample's weighted loss, summed row by row. -/
def numSample (b : Fin 32) : EReal :=
  ∑ r : Fin 512, ∑ c : Fin 512, lossAt a0 a1 a2 a3 a4 b r c * weightAt a0 a1 a2 a3 a4 a5 a6 b r c

/-- A sample's weighted gated confidence, summed row by row. -/
def denSample (b : Fin 32) : EReal :=
  ∑ r : Fin 512, ∑ c : Fin 512, gate (a4 (ix3 b r c)) * weightAt a0 a1 a2 a3 a4 a5 a6 b r c

/-- The result: the samples' weighted losses over their weighted gated confidences plus the constant. -/
def ratio : EReal :=
  FloatOps.hostDivf (F := Ideal) (φ := .f32)
    (Ideal.ofBits .f32 0x00000000#32 + ∑ b : Fin 32, numSample a0 a1 a2 a3 a4 a5 a6 b)
    ((Ideal.ofBits .f32 0x00000000#32 + ∑ b : Fin 32, denSample a0 a1 a2 a3 a4 a5 a6 b) + Ideal.ofBits .f32 0x33D6BF95#32)

/-- A one-bit word read as a float is one where the bit is set and zero where it is not. -/
theorem uitofp_bit (w : BitVec 1) :
    FloatOps.uitofp (F := Ideal) .f32 w = Scalar.select w (Ideal.ofBits .f32 0x3F800000#32) (Ideal.ofBits .f32 0x00000000#32) := by
  rcases BitVec.eq_zero_or_eq_one w with h | h <;> subst h
  · rw [select_zero]
    show (((0#1 : BitVec 1).toNat : ℝ) : EReal) = _
    simp [Ideal.ofBits, Ideal.ieee]
  · rw [select_one]
    show (((1#1 : BitVec 1).toNat : ℝ) : EReal) = _
    simp [Ideal.ofBits, Ideal.ieee, -EReal.coe_mul]
    norm_num

end Cert.MinedLoss

end
-- ==== Proof.LibIdx3.lean ====
/-
  A rank-3 index set is the product of its three coordinate ranges, so a sum over the indices of a rank-3 array is the
  triple sum over its coordinates at `ix3`.  (The rank-2 form, `sum_idx2`, is in the library's Lib/ValueIdx.lean.)
  And two ways of taking a largest entry agree: a fold of `max` from the least extended real over a finite index type
  is the supremum of the family, a supremum over the rows' suprema is the supremum over all pairs, and a supremum over
  the row-major positions `r · m + c` of an n × m table is the supremum over the pairs `(r, c)`.
-/
import Idealize.ShloMosaic.Lib.ValueIdx
import Mathlib.Data.EReal.Basic
import Mathlib.Order.CompleteLattice.Finset
import Mathlib.Logic.Equiv.Fin.Basic

noncomputable section

namespace Cert.Idx3

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A fold of `max` from the least extended real over a whole finite index type is the family's supremum. -/
theorem fold_max_bot {ι : Type*} [Fintype ι] (f : ι → EReal) :
    (Finset.univ : Finset ι).fold max ⊥ f = ⨆ k, f k := by
  rw [← Finset.sup_univ_eq_iSup]
  rfl

/-- The row-major position of the pair `(r, c)` in an n × m table. -/
def pos {n m : Nat} (N : Nat) (h : N = n * m) (r : Fin n) (c : Fin m) : Fin N :=
  ⟨r.val * m + c.val, by
    have hr := r.isLt; have hc := c.isLt
    calc r.val * m + c.val < r.val * m + m := by omega
      _ = (r.val + 1) * m := by rw [Nat.add_mul, Nat.one_mul]
      _ ≤ n * m := Nat.mul_le_mul_right m hr
      _ = N := h.symm⟩

/-- The pairs `(r, c)` and the row-major positions of an n × m table correspond one to one. -/
def posEquiv {n m : Nat} (N : Nat) (h : N = n * m) (hm : 0 < m) : Fin n × Fin m ≃ Fin N where
  toFun p := pos N h p.1 p.2
  invFun k := (⟨k.val / m, by
      have hk : k.val < n * m := h ▸ k.isLt
      exact Nat.div_lt_of_lt_mul (by rwa [Nat.mul_comm] at hk)⟩, ⟨k.val % m, Nat.mod_lt _ hm⟩)
  left_inv p := by
    obtain ⟨r, c⟩ := p
    have hc := c.isLt
    refine Prod.ext (Fin.ext ?_) (Fin.ext ?_)
    · show (r.val * m + c.val) / m = r.val
      rw [Nat.mul_comm, Nat.mul_add_div hm, Nat.div_eq_of_lt hc, Nat.add_zero]
    · show (r.val * m + c.val) % m = c.val
      rw [Nat.mul_comm, Nat.mul_add_mod, Nat.mod_eq_of_lt hc]
  right_inv k := Fin.ext (by
    show k.val / m * m + k.val % m = k.val
    rw [Nat.mul_comm]; exact Nat.div_add_mod _ _)

/-- A supremum over the row-major positions of an n × m table is the supremum over rows of the rows' suprema. -/
theorem iSup_pos {α : Type*} [CompleteLattice α] {n m : Nat} (N : Nat) (h : N = n * m) (hm : 0 < m) (F : Fin N → α) :
    (⨆ k : Fin N, F k) = ⨆ (r : Fin n) (c : Fin m), F (pos N h r c) := by
  rw [← (posEquiv N h hm).iSup_comp (g := F), iSup_prod]
  rfl

end Cert.Idx3

end
-- ==== Proof.LibLift2.lean ====
/-
  The index a one-axis reduction of a matrix puts back: reducing an m × n matrix over its columns (axis 1) leaves a
  vector over the rows, and entry p of the result gathers the matrix entries (p, k); reducing over its rows (axis 0)
  leaves a vector over the columns, and entry t gathers the entries (k, t).
-/
import Idealize.ShloMosaic.PureOps.Reduce
import Idealize.ShloMosaic.Lib.ValueIdx

namespace Cert.Lift2

open Idealize.ShloMosaic Idealize.ShloMosaic.ValueIdx

/-- Row `p` of the reduced vector with column `k` put back is the matrix index (p, k). -/
theorem lift_axis1 {m n : Nat} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- Column `t` of the reduced vector with row `k` put back is the matrix index (k, t). -/
theorem lift_axis0 {m n : Nat} (h : (⟨2, ![m, n]⟩ : Shape).Reduces [0] (⟨1, ![n]⟩ : Shape)) (t : Fin n)
    (k : Fin ((⟨2, ![m, n]⟩ : Shape).size 0)) : h.lift (ix1 t) k = ix2 (⟨k.val, k.isLt⟩ : Fin m) t := by
  funext c; apply Fin.ext
  fin_cases c <;> rfl

end Cert.Lift2
-- ==== Proof.LibAxisReduce.lean ====
/-
  One-axis reductions of a matrix of extended reals, read at coordinates.  Over the columns (axis 1) of an m × n matrix,
  entry p of the sum is the sum over c of the entries (p, c), and entry p of the maximum taken from minus infinity is
  the supremum over c of the entries (p, c); over the rows (axis 0), entry t gathers the entries (r, t) in the same
  two ways.  The accumulator's hypothesis is stated of the literal word, as a printed program's own evidence is.
-/
import Idealize.ShloMosaic.PureOps.Ideal.Laws
import Idealize.ShloMosaic.Lib.ValueIdx
import proofs.«132666_j22436909154406_1_alg».proof.Proof.LibLift2
import proofs.«132666_j22436909154406_1_alg».proof.Proof.LibIdx3

noncomputable section

namespace Cert.AxisReduce

open Idealize.ShloMosaic Idealize.ShloMosaic.ValueIdx Cert.Lift2 Cert.Idx3

/-- The word of minus infinity denotes the least extended real. -/
theorem ofBits_neg_inf : Ideal.ofBits .f32 0xFF800000#32 = (⊥ : EReal) := by
  simp [Ideal.ofBits, Ideal.ieee]

/-- A fold of `max` from the word of minus infinity over a whole finite index type is the family's supremum. -/
theorem fold_max_neg_inf {ι : Type*} [Fintype ι] (f : ι → EReal) :
    (Finset.univ : Finset ι).fold max (FloatOps.ofBits (F := Ideal) .f32 0xFF800000#32) f = ⨆ k, f k := by
  rw [Ideal.ofBits_def, ofBits_neg_inf]
  exact fold_max_bot f

/-- Entry `p` of the sum over the columns is the sum of row `p`. -/
theorem rowSum_apply {m n : Nat} (v : FVec Ideal ⟨2, ![m, n]⟩ .f32) (h : (⟨2, ![m, n]⟩ : Shape).Reduces [1] (⟨1, ![m]⟩ : Shape))
    (hφ : FKind.Formats .f32) (hacc : (0x00000000#32 : BitVec 32) = 0x00000000#32) (p : Fin m) :
    multiReduction .add [1] (⟨1, ![m]⟩ : Shape) v 0x00000000#32 h hφ hacc (ix1 p) = ∑ c : Fin n, v (ix2 p c) := by
  refine (Ideal.multiReduction_add_single v 0x00000000#32 h hφ hacc (ix1 p)).trans ?_
  show ∑ k : Fin n, v (h.lift (ix1 p) k) = _
  exact Finset.sum_congr rfl fun k _ => congrArg v (lift_axis1 h p k)

/-- Entry `t` of the sum over the rows is the sum of column `t`. -/
theorem colSum_apply {m n : Nat} (v : FVec Ideal ⟨2, ![m, n]⟩ .f32) (h : (⟨2, ![m, n]⟩ : Shape).Reduces [0] (⟨1, ![n]⟩ : Shape))
    (hφ : FKind.Formats .f32) (hacc : (0x00000000#32 : BitVec 32) = 0x00000000#32) (t : Fin n) :
    multiReduction .add [0] (⟨1, ![n]⟩ : Shape) v 0x00000000#32 h hφ hacc (ix1 t) = ∑ r : Fin m, v (ix2 r t) := by
  refine (Ideal.multiReduction_add_single v 0x00000000#32 h hφ hacc (ix1 t)).trans ?_
  show ∑ k : Fin m, v (h.lift (ix1 t) k) = _
  exact Finset.sum_congr rfl fun k _ => congrArg v (lift_axis0 h t k)

/-- Entry `p` of the maximum over the columns, taken from minus infinity, is the supremum of row `p`. -/
theorem rowMax_apply {m n : Nat} (v : FVec Ideal ⟨2, ![m, n]⟩ .f32) (h : (⟨2, ![m, n]⟩ : Shape).Reduces [1] (⟨1, ![m]⟩ : Shape))
    (hφ : FKind.Formats .f32) (hacc : (0xFF800000#32 : BitVec 32) = 0xFF800000#32) (p : Fin m) :
    multiReduction .maximumf [1] (⟨1, ![m]⟩ : Shape) v 0xFF800000#32 h hφ hacc (ix1 p) = ⨆ c : Fin n, v (ix2 p c) := by
  refine (Ideal.multiReduction_maximumf_single v 0xFF800000#32 h hφ hacc (ix1 p)).trans ?_
  refine (fold_max_neg_inf _).trans ?_
  exact iSup_congr fun k => congrArg v (lift_axis1 h p k)

/-- Entry `t` of the maximum over the rows, taken from minus infinity, is the supremum of column `t`. -/
theorem colMax_apply {m n : Nat} (v : FVec Ideal ⟨2, ![m, n]⟩ .f32) (h : (⟨2, ![m, n]⟩ : Shape).Reduces [0] (⟨1, ![n]⟩ : Shape))
    (hφ : FKind.Formats .f32) (hacc : (0xFF800000#32 : BitVec 32) = 0xFF800000#32) (t : Fin n) :
    multiReduction .maximumf [0] (⟨1, ![n]⟩ : Shape) v 0xFF800000#32 h hφ hacc (ix1 t) = ⨆ r : Fin m, v (ix2 r t) := by
  refine (Ideal.multiReduction_maximumf_single v 0xFF800000#32 h hφ hacc (ix1 t)).trans ?_
  refine (fold_max_neg_inf _).trans ?_
  exact iSup_congr fun k => congrArg v (lift_axis0 h t k)

end Cert.AxisReduce

end
-- ==== Proof.RefLoss.lean ====
/-
  The reference computes the loss of MinedLoss.lean.  Its operations are read one at a time at a pixel (b, r, c): the
  gated confidence, the pixel's loss, the background-masked loss; its maximum over the flattened 262144 pixels of a
  sample is the sample's peak, because position k of the flattened sample is pixel (k / 512, k % 512); the weight; and
  its two sums over all indices are the sums sample by sample, row by row.
-/
import proofs.«132666_j22436909154406_1_alg».proof.Proof.Gen.ReferenceIdeal.Read
import proofs.«132666_j22436909154406_1_alg».proof.Proof.MinedLoss
import proofs.«132666_j22436909154406_1_alg».proof.Proof.LibIdx3
import proofs.«132666_j22436909154406_1_alg».proof.Proof.LibLift2
import proofs.«132666_j22436909154406_1_alg».proof.Proof.LibAxisReduce

noncomputable section

namespace Cert.ReferenceIdeal.RefValue

open Cert.ReferenceIdeal Cert.ReferenceIdeal.Gen Cert.ReferenceIdeal.Read Idealize.ShloMosaic Idealize.ShloMosaic.ValueIdx
open Cert.MinedLoss Cert.Idx3 Cert.Lift2 Cert.AxisReduce

variable (a0 a1 a2 a3 a4 a5 a6 : (⟨S32x512x512, .f32⟩ : BufTy).Contents (Elt Ideal))

/-- The reference's gated confidence at a pixel. -/
theorem gate_at (b : Fin 32) (r c : Fin 512) : val_main_v3 (F := Ideal) a4 (ix3 b r c) = gate (a4 (ix3 b r c)) := by
  rw [val_main_v3_apply, val_main_v1_apply, val_main_v0_apply, val_main_cst_apply, val_main_v2_apply, val_main_cst_0_apply]
  rfl

/-- The reference's loss at a pixel. -/
theorem loss_at (b : Fin 32) (r c : Fin 512) :
    val_main_v9 (F := Ideal) a0 a1 a2 a3 a4 (ix3 b r c) = lossAt a0 a1 a2 a3 a4 b r c := by
  rw [val_main_v9_apply, val_main_v8_apply, val_main_v5_apply, val_main_v7_apply, val_main_v4_apply, val_main_v6_apply, gate_at]
  rfl

/-- The reference's background-masked loss at a pixel. -/
theorem bgLoss_at (b : Fin 32) (r c : Fin 512) :
    val_main_v10 (F := Ideal) a0 a1 a2 a3 a4 a6 (ix3 b r c) = bgLossAt a0 a1 a2 a3 a4 a6 b r c := by
  rw [val_main_v10_apply, loss_at]
  rfl

/-- Position `r · 512 + c` of sample `b`'s flattened pixels is pixel (b, r, c). -/
theorem flat_pixel (b : Fin 32) (r c : Fin 512) (k : Fin 262144) (hk : k.val = r.val * 512 + c.val) :
    idx_main_v11 (ix2 b k) = ix3 b r c := by
  have hb := b.isLt; have hr := r.isLt; have hc := c.isLt
  funext a; apply Fin.ext
  match a with
  | ⟨0, _⟩ => show (b.val * 262144 + k.val) / 262144 = b.val; omega
  | ⟨1, _⟩ => show (b.val * 262144 + k.val) / 512 % 512 = r.val; omega
  | ⟨2, _⟩ => show (b.val * 262144 + k.val) % 512 = c.val; omega

/-- The reference's maximum over a sample's flattened pixels is the sample's peak. -/
theorem peak_at (b : Fin 32) : val_main_v12 (F := Ideal) a0 a1 a2 a3 a4 a6 (ix1 b) = peak a0 a1 a2 a3 a4 a6 b := by
  have h : S32x262144.Reduces [1] S32 := ⟨reducesTo_S32x262144_S32_d1.1, Nat.one_pos, reducesTo_S32x262144_S32_d1.2⟩
  unfold val_main_v12
  refine (Host.reduce_eq_fold_single FloatOps.maximumf _ _ reducesTo_S32x262144_S32_d1 h h_S_ (ix1 b)).trans ?_
  refine (fold_max_neg_inf (fun k => val_main_v11 (F := Ideal) a0 a1 a2 a3 a4 a6 (h.lift (ix1 b) k))).trans ?_
  refine (iSup_pos (n := 512) (m := 512) 262144 (by norm_num) (by norm_num)
    (fun k : Fin 262144 => val_main_v11 (F := Ideal) a0 a1 a2 a3 a4 a6 (h.lift (ix1 b) k))).trans ?_
  unfold peak
  refine iSup_congr fun r => iSup_congr fun c => ?_
  refine (congrArg (val_main_v11 (F := Ideal) a0 a1 a2 a3 a4 a6) (lift_axis1 h b (pos 262144 (by norm_num) r c))).trans ?_
  rw [val_main_v11_apply, flat_pixel b r c _ rfl, bgLoss_at]

/-- The reference's threshold at a pixel is its sample's peak. -/
theorem thresh_at (b : Fin 32) (r c : Fin 512) :
    val_main_v16 (F := Ideal) a0 a1 a2 a3 a4 a6 (ix3 b r c) = peak a0 a1 a2 a3 a4 a6 b := by
  rw [val_main_v16_apply, val_main_v15_apply]
  have e : idx_main_v15 (idx_main_v16 (ix3 b r c)) = ix1 b := by
    funext a; match a with | ⟨0, _⟩ => rfl
  rw [e, peak_at]

/-- The reference's weight at a pixel. -/
theorem weight_at (b : Fin 32) (r c : Fin 512) :
    val_main_v20 (F := Ideal) a0 a1 a2 a3 a4 a5 a6 (ix3 b r c) = weightAt a0 a1 a2 a3 a4 a5 a6 b r c := by
  rw [val_main_v20_apply, val_main_v19_apply, val_main_v18_apply, val_main_v14_apply, val_main_v17_apply, val_main_v13_apply,
    val_main_cst_2_apply, thresh_at, bgLoss_at]
  rfl

/-- The reference's result is the loss. -/
theorem result_eq : val_main_v26 (F := Ideal) a0 a1 a2 a3 a4 a5 a6 = fun _ => ratio a0 a1 a2 a3 a4 a5 a6 := by
  funext i
  rw [val_main_v26_apply, val_main_v22_apply, val_main_v25_apply, val_main_v24_apply, val_main_cst_5_apply,
    val_main_cst_3_apply, val_main_cst_4_apply, sum_idx3, sum_idx3]
  unfold ratio numSample denSample
  have e1 : ∀ (b : Fin 32) (r c : Fin 512), val_main_v21 (F := Ideal) a0 a1 a2 a3 a4 a5 a6 (ix3 b r c)
      = lossAt a0 a1 a2 a3 a4 b r c * weightAt a0 a1 a2 a3 a4 a5 a6 b r c := fun b r c => by
    rw [val_main_v21_apply, loss_at, weight_at]; rfl
  have e2 : ∀ (b : Fin 32) (r c : Fin 512), val_main_v23 (F := Ideal) a0 a1 a2 a3 a4 a5 a6 (ix3 b r c)
      = gate (a4 (ix3 b r c)) * weightAt a0 a1 a2 a3 a4 a5 a6 b r c := fun b r c => by
    rw [val_main_v23_apply, gate_at, weight_at]; rfl
  simp only [e1, e2]
  rfl

end Cert.ReferenceIdeal.RefValue

end
-- ==== Proof.LibColumns.lean ====
/-
  Column vectors read at coordinates: the three layout steps of a "keepdims" row reduction.

  A reduction over the last axis of an `[a, n]` array gives a vector `[a]`; kept as a COLUMN it is cast to `[a, 1]`,
  and a column is then either broadcast along a new second axis to `[a, b]` (every entry of row `p` is the column's
  entry `p`) or transposed to the row `[1, a]`. Each lemma reads one of these at an index written with coordinates.
-/
import Idealize.ShloMosaic.Lib.Pipeline.Value
import Idealize.ShloMosaic.Lib.ValueIdx
import Idealize.ShloMosaic.Lib.ValueLayout

namespace Cert.Lib.Columns

open Idealize.ShloMosaic Idealize.ShloMosaic.ValueIdx

variable {α : Type}

/-- A vector `[a]` cast to the column `[a, 1]` reads, at `(p, z)`, the vector at `p`, whatever the unit coordinate `z`:
    both indices have row-major position `p`. -/
theorem shapeCast_a_a1_apply {a : ℕ} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` transposed to the row `[1, a]` reads, at `(z, p)`, the column's entry `p`. -/
theorem transpose_a1_1a_apply {a : ℕ} (x : (⟨2, ![a, 1]⟩ : Shape).Idx → α)
    (h : (⟨2, ![a, 1]⟩ : Shape).Transposes [1, 0] ⟨2, ![1, a]⟩) (z : Fin 1) (p : Fin a) :
    transpose ⟨2, ![1, a]⟩ [1, 0] x h (ix2 z p) = x (ix2 p z) :=
  transpose_ix2_apply x h z p

end Cert.Lib.Columns
-- ==== Proof.SampleBody.lean ====
/-
  What the kernel's body computes from one sample's seven blocks.  Each [1, 512, 512] block is its one plane; the
  body's values at a pixel (r, c) of the plane are the gated confidence, the pixel's loss, the background-masked loss;
  the maximum over the columns and then over the rows is the supremum over the plane, so the threshold is the sample's
  peak; the two stored vectors hold, in each of their 128 lanes, the plane's sum over columns and then rows of
  loss × weight and of gated confidence × weight.  The blocks are tied to the arrays' sample `b` by hypotheses, so
  that the statements are about variables and are instantiated at a grid point afterwards.
-/
import proofs.«132666_j22436909154406_1_alg».proof.Proof.Gen.KernelIdeal.Skeleton
import proofs.«132666_j22436909154406_1_alg».proof.Proof.MinedLoss
import proofs.«132666_j22436909154406_1_alg».proof.Proof.LibAxisReduce
import proofs.«132666_j22436909154406_1_alg».proof.Proof.LibColumns
import Idealize.ShloMosaic.Lib.ValueLayout

noncomputable section

namespace Cert.KernelIdeal.Body

open Cert.KernelIdeal Cert.KernelIdeal.Gen Idealize.ShloMosaic Idealize.ShloMosaic.ValueIdx
open Cert.MinedLoss Cert.AxisReduce Cert.Lib.Columns

/-- A [1, 512, 512] block viewed as its plane. -/
theorem plane_at (x : Vec Ideal S1x512x512 .f32) (r c : Fin 512) :
    shapeCast S512x512 x shapeCasts_S1x512x512_S512x512 (ix2 r c) = x (ix3 (0 : Fin 1) r c) :=
  shapeCast_1ab_ab_apply x _ r c

/-- A plane's sum over the columns and then the rows, kept as a [1, 1] value and spread over the 128 lanes, holds in
    every lane the plane's sum row by row. -/
theorem total_lanes (w : FVec Ideal S512x512 .f32) (j : S1x1x128.Idx) :
    broadcastTo S1x1x128 (shapeCast S1x1x1 (shapeCast S1x1x1 (shapeCast S1x1 (multiReduction .add [0] S1
      (shapeCast S512x1 (multiReduction .add [1] S512 w 0x00000000#32 reduces_S512x512_S512 (.inl rfl) rfl) shapeCasts_S512_S512x1)
      0x00000000#32 reduces_S512x1_S1 (.inl rfl) rfl) shapeCasts_S1_S1x1) shapeCasts_S1x1_S1x1x1) shapeCasts_S1x1x1_S1x1x1)
      broadcasts_S1x1x1_S1x1x128 j = ∑ r : Fin 512, ∑ c : Fin 512, w (ix2 r c) := by
  refine (broadcastTo_apply _ broadcasts_S1x1x1_S1x1x128 j (ix3 (0 : Fin 1) (0 : Fin 1) (0 : Fin 1)) fun a => ?_).trans ?_
  · match a with
    | ⟨0, _⟩ => rfl
    | ⟨1, _⟩ => rfl
    | ⟨2, _⟩ => rfl
  rw [shapeCast_self]
  refine (shapeCast_ab_1ab_apply _ shapeCasts_S1x1_S1x1x1 (0 : Fin 1) (0 : Fin 1) (0 : Fin 1)).trans ?_
  refine (shapeCast_a_a1_apply _ shapeCasts_S1_S1x1 (0 : Fin 1) (0 : Fin 1)).trans ?_
  refine (colSum_apply _ reduces_S512x1_S1 (.inl rfl) rfl (0 : Fin 1)).trans ?_
  refine Finset.sum_congr rfl fun r _ => ?_
  refine (shapeCast_a_a1_apply _ shapeCasts_S512_S512x1 r (0 : Fin 1)).trans ?_
  exact rowSum_apply w reduces_S512x512_S512 (.inl rfl) rfl r

/-- A plane's maximum over the columns and then the rows, taken from minus infinity, kept as a [1, 1] value and
    spread over the plane, holds at every pixel the plane's supremum. -/
theorem peak_plane (w : FVec Ideal S512x512 .f32) (r c : Fin 512) :
    broadcastTo S512x512 (shapeCast S1x1 (multiReduction .maximumf [0] S1
      (shapeCast S512x1 (multiReduction .maximumf [1] S512 w 0xFF800000#32 reduces_S512x512_S512 (.inl rfl) rfl) shapeCasts_S512_S512x1)
      0xFF800000#32 reduces_S512x1_S1 (.inl rfl) rfl) shapeCasts_S1_S1x1) broadcasts_S1x1_S512x512 (ix2 r c)
      = ⨆ (r' : Fin 512) (c' : Fin 512), w (ix2 r' c') := by
  refine (broadcastTo_apply _ broadcasts_S1x1_S512x512 (ix2 r c) (ix2 (0 : Fin 1) (0 : Fin 1)) fun a => ?_).trans ?_
  · match a with
    | ⟨0, _⟩ => rfl
    | ⟨1, _⟩ => rfl
  refine (shapeCast_a_a1_apply _ shapeCasts_S1_S1x1 (0 : Fin 1) (0 : Fin 1)).trans ?_
  refine (colMax_apply _ reduces_S512x1_S1 (.inl rfl) rfl (0 : Fin 1)).trans ?_
  refine iSup_congr fun r' => ?_
  refine (shapeCast_a_a1_apply _ shapeCasts_S512_S512x1 r' (0 : Fin 1)).trans ?_
  exact rowMax_apply w reduces_S512x512_S512 (.inl rfl) rfl r'

variable (x0 x1 x2 x3 x4 x5 x6 : Vec Ideal S1x512x512 .f32)
variable (a0 a1 a2 a3 a4 a5 a6 : Arr) (b : Fin 32)
variable (h0 : ∀ r c : Fin 512, x0 (ix3 (0 : Fin 1) r c) = a0 (ix3 b r c))
  (h1 : ∀ r c : Fin 512, x1 (ix3 (0 : Fin 1) r c) = a1 (ix3 b r c))
  (h2 : ∀ r c : Fin 512, x2 (ix3 (0 : Fin 1) r c) = a2 (ix3 b r c))
  (h3 : ∀ r c : Fin 512, x3 (ix3 (0 : Fin 1) r c) = a3 (ix3 b r c))
  (h4 : ∀ r c : Fin 512, x4 (ix3 (0 : Fin 1) r c) = a4 (ix3 b r c))
  (h5 : ∀ r c : Fin 512, x5 (ix3 (0 : Fin 1) r c) = a5 (ix3 b r c))
  (h6 : ∀ r c : Fin 512, x6 (ix3 (0 : Fin 1) r c) = a6 (ix3 b r c))

include h4 in
/-- The body's gated confidence at a pixel. -/
theorem gate_blk (r c : Fin 512) : k0_pay6 x4 (ix2 r c) = gate (a4 (ix3 b r c)) := by
  unfold k0_pay6
  show Scalar.select (FloatOps.cmpf (F := Ideal) (φ := .f32) .oge (shapeCast S512x512 x4 shapeCasts_S1x512x512_S512x512 (ix2 r c)) _)
    (shapeCast S512x512 x4 shapeCasts_S1x512x512_S512x512 (ix2 r c)) _ = _
  rw [plane_at, h4]
  rfl

include h0 h1 h2 h3 h4 in
/-- The body's loss at a pixel. -/
theorem loss_blk (r c : Fin 512) : k0_pay7 x0 x1 x2 x3 x4 (ix2 r c) = lossAt a0 a1 a2 a3 a4 b r c := by
  unfold k0_pay7
  show (FloatOps.absf (F := Ideal) (φ := .f32) (shapeCast S512x512 x0 shapeCasts_S1x512x512_S512x512 (ix2 r c) - shapeCast S512x512 x2 shapeCasts_S1x512x512_S512x512 (ix2 r c))
      + FloatOps.absf (F := Ideal) (φ := .f32) (shapeCast S512x512 x1 shapeCasts_S1x512x512_S512x512 (ix2 r c) - shapeCast S512x512 x3 shapeCasts_S1x512x512_S512x512 (ix2 r c)))
      * k0_pay6 x4 (ix2 r c) = _
  rw [plane_at, plane_at, plane_at, plane_at, h0, h1, h2, h3, gate_blk x4 a4 b h4]
  rfl

include h6 in
/-- The body's background mask at a pixel. -/
theorem bg_blk (r c : Fin 512) : k0_pay5 x6 (ix2 r c) = a6 (ix3 b r c) := by
  unfold k0_pay5
  show shapeCast S512x512 x6 shapeCasts_S1x512x512_S512x512 (ix2 r c) = _
  rw [plane_at, h6]

include h5 in
/-- The body's foreground mask at a pixel. -/
theorem fg_blk (r c : Fin 512) : k0_pay4 x5 (ix2 r c) = a5 (ix3 b r c) := by
  unfold k0_pay4
  show shapeCast S512x512 x5 shapeCasts_S1x512x512_S512x512 (ix2 r c) = _
  rw [plane_at, h5]

include h0 h1 h2 h3 h4 h6 in
/-- The body's background-masked loss at a pixel. -/
theorem bgLoss_blk (r c : Fin 512) :
    mulf (k0_pay7 x0 x1 x2 x3 x4) (k0_pay5 x6) (ix2 r c) = bgLossAt a0 a1 a2 a3 a4 a6 b r c := by
  show k0_pay7 x0 x1 x2 x3 x4 (ix2 r c) * k0_pay5 x6 (ix2 r c) = _
  rw [loss_blk x0 x1 x2 x3 x4 a0 a1 a2 a3 a4 b h0 h1 h2 h3 h4, bg_blk x6 a6 b h6]
  rfl

include h0 h1 h2 h3 h4 h6 in
/-- The body's hard-background bit at a pixel. -/
theorem hard_blk (r c : Fin 512) :
    IntOp.andi (k0_pay8 x6 (ix2 r c)) (k0_pay9 x0 x1 x2 x3 x4 x6 (ix2 r c)) = hardBit a0 a1 a2 a3 a4 a6 b r c := by
  have e8 : k0_pay8 x6 (ix2 r c) = FloatOps.cmpf (F := Ideal) (φ := .f32) .ogt (a6 (ix3 b r c)) (Ideal.ofBits .f32 0x00000000#32) := by
    unfold k0_pay8
    show FloatOps.cmpf (F := Ideal) (φ := .f32) .ogt (k0_pay5 x6 (ix2 r c)) _ = _
    rw [bg_blk x6 a6 b h6]
    rfl
  have e9 : k0_pay9 x0 x1 x2 x3 x4 x6 (ix2 r c)
      = FloatOps.cmpf (F := Ideal) (φ := .f32) .oge (bgLossAt a0 a1 a2 a3 a4 a6 b r c) (peak a0 a1 a2 a3 a4 a6 b) := by
    have p1 := bgLoss_blk x0 x1 x2 x3 x4 x6 a0 a1 a2 a3 a4 a6 b h0 h1 h2 h3 h4 h6 r c
    have p2 := peak_plane (mulf (k0_pay7 x0 x1 x2 x3 x4) (k0_pay5 x6)) r c
    have p3 : (⨆ (r' : Fin 512) (c' : Fin 512), mulf (k0_pay7 x0 x1 x2 x3 x4) (k0_pay5 x6) (ix2 r' c')) = peak a0 a1 a2 a3 a4 a6 b := by
      unfold peak
      exact iSup_congr fun r' => iSup_congr fun c' => bgLoss_blk x0 x1 x2 x3 x4 x6 a0 a1 a2 a3 a4 a6 b h0 h1 h2 h3 h4 h6 r' c'
    unfold k0_pay9
    rw [cmpf_apply, p1, p2, p3]
  rw [e8, e9]
  rfl

include h0 h1 h2 h3 h4 h5 h6 in
/-- The body's weight at a pixel. -/
theorem weight_blk (r c : Fin 512) :
    k0_pay1 (k0_pay4 x5) (k0_pay8 x6) (k0_pay9 x0 x1 x2 x3 x4 x6) (ix2 r c) = weightAt a0 a1 a2 a3 a4 a5 a6 b r c := by
  unfold k0_pay1
  show Scalar.select (IntOp.andi (k0_pay8 x6 (ix2 r c)) (k0_pay9 x0 x1 x2 x3 x4 x6 (ix2 r c))) (Ideal.ofBits .f32 0x3F800000#32) (Ideal.ofBits .f32 0x00000000#32)
    + k0_pay4 x5 (ix2 r c) = _
  rw [hard_blk x0 x1 x2 x3 x4 x6 a0 a1 a2 a3 a4 a6 b h0 h1 h2 h3 h4 h6, fg_blk x5 a5 b h5, ← uitofp_bit]
  rfl

include h0 h1 h2 h3 h4 h5 h6 in
/-- Every lane of the first stored vector holds the sample's weighted loss. -/
theorem num_blk (j : S1x1x128.Idx) :
    k0_pay2 (k0_pay4 x5) (k0_pay7 x0 x1 x2 x3 x4) (k0_pay8 x6) (k0_pay9 x0 x1 x2 x3 x4 x6) j
      = numSample a0 a1 a2 a3 a4 a5 a6 b := by
  unfold k0_pay2
  refine (total_lanes _ j).trans ?_
  unfold numSample
  refine Finset.sum_congr rfl fun r _ => Finset.sum_congr rfl fun c _ => ?_
  show k0_pay7 x0 x1 x2 x3 x4 (ix2 r c) * k0_pay1 (k0_pay4 x5) (k0_pay8 x6) (k0_pay9 x0 x1 x2 x3 x4 x6) (ix2 r c) = _
  rw [loss_blk x0 x1 x2 x3 x4 a0 a1 a2 a3 a4 b h0 h1 h2 h3 h4,
    weight_blk x0 x1 x2 x3 x4 x5 x6 a0 a1 a2 a3 a4 a5 a6 b h0 h1 h2 h3 h4 h5 h6]

include h0 h1 h2 h3 h4 h5 h6 in
/-- Every lane of the second stored vector holds the sample's weighted gated confidence. -/
theorem den_blk (j : S1x1x128.Idx) :
    k0_pay3 (k0_pay4 x5) (k0_pay6 x4) (k0_pay8 x6) (k0_pay9 x0 x1 x2 x3 x4 x6) j
      = denSample a0 a1 a2 a3 a4 a5 a6 b := by
  unfold k0_pay3
  refine (total_lanes _ j).trans ?_
  unfold denSample
  refine Finset.sum_congr rfl fun r _ => Finset.sum_congr rfl fun c _ => ?_
  show k0_pay6 x4 (ix2 r c) * k0_pay1 (k0_pay4 x5) (k0_pay8 x6) (k0_pay9 x0 x1 x2 x3 x4 x6) (ix2 r c) = _
  rw [gate_blk x4 a4 b h4, weight_blk x0 x1 x2 x3 x4 x5 x6 a0 a1 a2 a3 a4 a5 a6 b h0 h1 h2 h3 h4 h5 h6]

end Cert.KernelIdeal.Body

end
-- ==== Proof.Blocks.lean ====
/-
  From the blocks to the two output arrays.  Grid point t stages sample t of each of the seven arguments (every
  window's block index is (t, 0, 0)), so by SampleBody.lean what it writes back is row t of an array that holds, in all
  128 lanes of row b, sample b's weighted loss (first output) or weighted gated confidence (second output); the 32
  points' blocks cover both arrays, so those are the arrays after the run.
-/
import proofs.«132666_j22436909154406_1_alg».proof.Proof.Gen.KernelIdeal.Frame
import proofs.«132666_j22436909154406_1_alg».proof.Proof.SampleBody
import Idealize.ShloMosaic.Lib.Pipeline.Value

noncomputable section

namespace Cert.KernelIdeal.Blocks

open Cert.KernelIdeal Cert.KernelIdeal.Gen Idealize.ShloMosaic Idealize.ShloMosaic.TcCoe Idealize.SL.Sem Idealize.ShloMosaic.ValueIdx
open Idealize.ShloMosaic.Pipeline (Dat)
open Cert.MinedLoss Cert.KernelIdeal.Body

variable (m : (ℓ : Loc nD τ sig) → Buf (Elt Ideal) ℓ) (ρ : Dev nD → PrngReg)

theorem hz : (![0, 0, 0] : Fin 3 → Nat) = fun _ => 0 := funext fun a => by fin_cases a <;> rfl

/-- Row b of the first output array holds sample b's weighted loss in every lane. -/
def numArr (a0 a1 a2 a3 a4 a5 a6 : Arr) : S32x1x128.Idx → EReal :=
  fun i => numSample a0 a1 a2 a3 a4 a5 a6 ⟨(i 0).val, (i 0).isLt⟩

/-- Row b of the second output array holds sample b's weighted gated confidence in every lane. -/
def denArr (a0 a1 a2 a3 a4 a5 a6 : Arr) : S32x1x128.Idx → EReal :=
  fun i => denSample a0 a1 a2 a3 a4 a5 a6 ⟨(i 0).val, (i 0).isLt⟩

/-- The printed index maps, decided over the 32 grid points: every window's block index at point t is (t, 0, 0). -/
theorem idx_facts : ∀ t : Fin cfg0.N, (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0)
    ∧ (win0_6.index t (0 : Fin 3) = t.val ∧ win0_6.index t (1 : Fin 3) = 0 ∧ win0_6.index t (2 : Fin 3) = 0)
    ∧ (win0_7.index t (0 : Fin 3) = t.val ∧ win0_7.index t (1 : Fin 3) = 0 ∧ win0_7.index t (2 : Fin 3) = 0)
    ∧ (win0_8.index t (0 : Fin 3) = t.val ∧ win0_8.index t (1 : Fin 3) = 0 ∧ win0_8.index t (2 : Fin 3) = 0) :=
  (by decide +kernel : ∀ t : Fin grid0.N, _)

/-- Input block 0 at point `t` is sample `t` of argument 0. -/
theorem iblk0_at (c : Dev nD) (t : Fin cfg0.N) (b : Fin 32) (hb : b.val = t.val) (r q : Fin 512) :
    (iblk m c 0 t : Vec Ideal S1x512x512 .f32) (ix3 (0 : Fin 1) r q) = (V m c main_arg0 : S32x512x512.Idx → EReal) (ix3 b r q) := by
  unfold iblk
  rw [View.read_apply]
  show V m c main_arg0 (((cfg0.win 0).blk t).view.emb (ix3 (0 : Fin 1) r q)) = V m c main_arg0 (ix3 b r q)
  refine congrArg _ (funext fun a => Fin.ext ?_)
  have hi := (idx_facts t).1
  match a with
  | ⟨0, _⟩ => show win0_0.index t (0 : Fin 3) * 1 + 1 * 0 = b.val; rw [hi.1, hb]; omega
  | ⟨1, _⟩ => show win0_0.index t (1 : Fin 3) * 512 + 1 * r.val = r.val; rw [hi.2.1]; omega
  | ⟨2, _⟩ => show win0_0.index t (2 : Fin 3) * 512 + 1 * q.val = q.val; rw [hi.2.2]; omega

/-- Input block 1 at point `t` is sample `t` of argument 1. -/
theorem iblk1_at (c : Dev nD) (t : Fin cfg0.N) (b : Fin 32) (hb : b.val = t.val) (r q : Fin 512) :
    (iblk m c 1 t : Vec Ideal S1x512x512 .f32) (ix3 (0 : Fin 1) r q) = (V m c main_arg1 : S32x512x512.Idx → EReal) (ix3 b r q) := by
  unfold iblk
  rw [View.read_apply]
  show V m c main_arg1 (((cfg0.win 1).blk t).view.emb (ix3 (0 : Fin 1) r q)) = V m c main_arg1 (ix3 b r q)
  refine congrArg _ (funext fun a => Fin.ext ?_)
  have hi := (idx_facts t).2.1
  match a with
  | ⟨0, _⟩ => show win0_1.index t (0 : Fin 3) * 1 + 1 * 0 = b.val; rw [hi.1, hb]; omega
  | ⟨1, _⟩ => show win0_1.index t (1 : Fin 3) * 512 + 1 * r.val = r.val; rw [hi.2.1]; omega
  | ⟨2, _⟩ => show win0_1.index t (2 : Fin 3) * 512 + 1 * q.val = q.val; rw [hi.2.2]; omega

/-- Input block 2 at point `t` is sample `t` of argument 2. -/
theorem iblk2_at (c : Dev nD) (t : Fin cfg0.N) (b : Fin 32) (hb : b.val = t.val) (r q : Fin 512) :
    (iblk m c 2 t : Vec Ideal S1x512x512 .f32) (ix3 (0 : Fin 1) r q) = (V m c main_arg2 : S32x512x512.Idx → EReal) (ix3 b r q) := by
  unfold iblk
  rw [View.read_apply]
  show V m c main_arg2 (((cfg0.win 2).blk t).view.emb (ix3 (0 : Fin 1) r q)) = V m c main_arg2 (ix3 b r q)
  refine congrArg _ (funext fun a => Fin.ext ?_)
  have hi := (idx_facts t).2.2.1
  match a with
  | ⟨0, _⟩ => show win0_2.index t (0 : Fin 3) * 1 + 1 * 0 = b.val; rw [hi.1, hb]; omega
  | ⟨1, _⟩ => show win0_2.index t (1 : Fin 3) * 512 + 1 * r.val = r.val; rw [hi.2.1]; omega
  | ⟨2, _⟩ => show win0_2.index t (2 : Fin 3) * 512 + 1 * q.val = q.val; rw [hi.2.2]; omega

/-- Input block 3 at point `t` is sample `t` of argument 3. -/
theorem iblk3_at (c : Dev nD) (t : Fin cfg0.N) (b : Fin 32) (hb : b.val = t.val) (r q : Fin 512) :
    (iblk m c 3 t : Vec Ideal S1x512x512 .f32) (ix3 (0 : Fin 1) r q) = (V m c main_arg3 : S32x512x512.Idx → EReal) (ix3 b r q) := by
  unfold iblk
  rw [View.read_apply]
  show V m c main_arg3 (((cfg0.win 3).blk t).view.emb (ix3 (0 : Fin 1) r q)) = V m c main_arg3 (ix3 b r q)
  refine congrArg _ (funext fun a => Fin.ext ?_)
  have hi := (idx_facts t).2.2.2.1
  match a with
  | ⟨0, _⟩ => show win0_3.index t (0 : Fin 3) * 1 + 1 * 0 = b.val; rw [hi.1, hb]; omega
  | ⟨1, _⟩ => show win0_3.index t (1 : Fin 3) * 512 + 1 * r.val = r.val; rw [hi.2.1]; omega
  | ⟨2, _⟩ => show win0_3.index t (2 : Fin 3) * 512 + 1 * q.val = q.val; rw [hi.2.2]; omega

/-- Input block 4 at point `t` is sample `t` of argument 4. -/
theorem iblk4_at (c : Dev nD) (t : Fin cfg0.N) (b : Fin 32) (hb : b.val = t.val) (r q : Fin 512) :
    (iblk m c 4 t : Vec Ideal S1x512x512 .f32) (ix3 (0 : Fin 1) r q) = (V m c main_arg4 : S32x512x512.Idx → EReal) (ix3 b r q) := by
  unfold iblk
  rw [View.read_apply]
  show V m c main_arg4 (((cfg0.win 4).blk t).view.emb (ix3 (0 : Fin 1) r q)) = V m c main_arg4 (ix3 b r q)
  refine congrArg _ (funext fun a => Fin.ext ?_)
  have hi := (idx_facts t).2.2.2.2.1
  match a with
  | ⟨0, _⟩ => show win0_4.index t (0 : Fin 3) * 1 + 1 * 0 = b.val; rw [hi.1, hb]; omega
  | ⟨1, _⟩ => show win0_4.index t (1 : Fin 3) * 512 + 1 * r.val = r.val; rw [hi.2.1]; omega
  | ⟨2, _⟩ => show win0_4.index t (2 : Fin 3) * 512 + 1 * q.val = q.val; rw [hi.2.2]; omega

/-- Input block 5 at point `t` is sample `t` of argument 5. -/
theorem iblk5_at (c : Dev nD) (t : Fin cfg0.N) (b : Fin 32) (hb : b.val = t.val) (r q : Fin 512) :
    (iblk m c 5 t : Vec Ideal S1x512x512 .f32) (ix3 (0 : Fin 1) r q) = (V m c main_arg5 : S32x512x512.Idx → EReal) (ix3 b r q) := by
  unfold iblk
  rw [View.read_apply]
  show V m c main_arg5 (((cfg0.win 5).blk t).view.emb (ix3 (0 : Fin 1) r q)) = V m c main_arg5 (ix3 b r q)
  refine congrArg _ (funext fun a => Fin.ext ?_)
  have hi := (idx_facts t).2.2.2.2.2.1
  match a with
  | ⟨0, _⟩ => show win0_5.index t (0 : Fin 3) * 1 + 1 * 0 = b.val; rw [hi.1, hb]; omega
  | ⟨1, _⟩ => show win0_5.index t (1 : Fin 3) * 512 + 1 * r.val = r.val; rw [hi.2.1]; omega
  | ⟨2, _⟩ => show win0_5.index t (2 : Fin 3) * 512 + 1 * q.val = q.val; rw [hi.2.2]; omega

/-- Input block 6 at point `t` is sample `t` of argument 6. -/
theorem iblk6_at (c : Dev nD) (t : Fin cfg0.N) (b : Fin 32) (hb : b.val = t.val) (r q : Fin 512) :
    (iblk m c 6 t : Vec Ideal S1x512x512 .f32) (ix3 (0 : Fin 1) r q) = (V m c main_arg6 : S32x512x512.Idx → EReal) (ix3 b r q) := by
  unfold iblk
  rw [View.read_apply]
  show V m c main_arg6 (((cfg0.win 6).blk t).view.emb (ix3 (0 : Fin 1) r q)) = V m c main_arg6 (ix3 b r q)
  refine congrArg _ (funext fun a => Fin.ext ?_)
  have hi := (idx_facts t).2.2.2.2.2.2.1
  match a with
  | ⟨0, _⟩ => show win0_6.index t (0 : Fin 3) * 1 + 1 * 0 = b.val; rw [hi.1, hb]; omega
  | ⟨1, _⟩ => show win0_6.index t (1 : Fin 3) * 512 + 1 * r.val = r.val; rw [hi.2.1]; omega
  | ⟨2, _⟩ => show win0_6.index t (2 : Fin 3) * 512 + 1 * q.val = q.val; rw [hi.2.2]; omega

/-- An index of output array 0 is in point `t`'s block iff each coordinate is in the block's range on its axis. -/
theorem mem_blk7 (t : Fin cfg0.N) (i : S32x1x128.Idx) :
    i ∈ ((cfg0.win 7).blk t).view.set ↔ ∀ a : Fin 3, win0_7.index t a * S1x1x128.size a ≤ (i a).val ∧ (i a).val < win0_7.index t a * S1x1x128.size a + S1x1x128.size a := by
  show i ∈ ((View.whole main_v0_0).slice (win0_7.rect t)).set ↔ _
  rw [View.set_slice_whole, Rect.mem_set_unit]
  exact Iff.rfl

/-- What point `t` writes back to output array 0 is block `t` of `numArr` of the arguments. -/
theorem flushed7_eq (c : Dev nD) (t : Fin cfg0.N) :
    (dats m 0 c).flushed 7 t = ((cfg0.win 7).blk t).view.read (Elt Ideal)
      (numArr (V m c main_arg0) (V m c main_arg1) (V m c main_arg2) (V m c main_arg3) (V m c main_arg4) (V m c main_arg5) (V m c main_arg6)) := by
  show (cfg0.win 7).cut (grid0.coords t) ((dats m 0 c).after 7 t) = _
  rw [after0_7]
  unfold out0_7
  rw [View.canon_unit_zero hz]
  simp only [View.ld_unit_zero (S := S1x512x512) hz]
  have hN : t.val < 32 := lt_of_lt_of_eq t.isLt N_0
  funext j
  rw [View.read_apply]
  have hi := (idx_facts t).2.2.2.2.2.2.2.1
  have he : (((cfg0.win 7).blk t).view.emb j 0).val = t.val := by
    show win0_7.index t (0 : Fin 3) * 1 + 1 * (j 0).val = t.val
    have hj : (j 0).val < 1 := (j 0).isLt
    rw [hi.1]; omega
  refine (num_blk (iblk m c 0 t) (iblk m c 1 t) (iblk m c 2 t) (iblk m c 3 t) (iblk m c 4 t) (iblk m c 5 t) (iblk m c 6 t)
    (V m c main_arg0) (V m c main_arg1) (V m c main_arg2) (V m c main_arg3) (V m c main_arg4) (V m c main_arg5) (V m c main_arg6)
    ⟨t.val, hN⟩ (iblk0_at m c t ⟨t.val, hN⟩ rfl) (iblk1_at m c t ⟨t.val, hN⟩ rfl) (iblk2_at m c t ⟨t.val, hN⟩ rfl)
    (iblk3_at m c t ⟨t.val, hN⟩ rfl) (iblk4_at m c t ⟨t.val, hN⟩ rfl) (iblk5_at m c t ⟨t.val, hN⟩ rfl) (iblk6_at m c t ⟨t.val, hN⟩ rfl) j).trans ?_
  show numSample _ _ _ _ _ _ _ ⟨t.val, hN⟩ = numSample _ _ _ _ _ _ _ ⟨(((cfg0.win 7).blk t).view.emb j 0).val, _⟩
  exact congrArg _ (Fin.ext he.symm)

/-- Every index of output array 0 is in the block of the point of its sample. -/
theorem cover7 (i : S32x1x128.Idx) : ∃ t : Fin cfg0.N, (cfg0.win 7).flush t = true ∧ i ∈ ((cfg0.win 7).blk t).view.set := by
  have h0 : (i 0).val < 32 := (i 0).isLt
  have h1 : (i 1).val < 1 := (i 1).isLt
  have h2 : (i 2).val < 128 := (i 2).isLt
  refine ⟨⟨(i 0).val, lt_of_lt_of_eq h0 N_0.symm⟩, flush0_7 _, ?_⟩
  rw [mem_blk7]
  have hi := (idx_facts ⟨(i 0).val, lt_of_lt_of_eq h0 N_0.symm⟩).2.2.2.2.2.2.2.1
  intro a
  match a with
  | ⟨0, _⟩ => show win0_7.index _ (0 : Fin 3) * 1 ≤ (i 0).val ∧ (i 0).val < win0_7.index _ (0 : Fin 3) * 1 + 1; rw [show win0_7.index _ (0 : Fin 3) = (i 0).val from hi.1]; omega
  | ⟨1, _⟩ => show win0_7.index _ (1 : Fin 3) * 1 ≤ (i 1).val ∧ (i 1).val < win0_7.index _ (1 : Fin 3) * 1 + 1; rw [hi.2.1]; omega
  | ⟨2, _⟩ => show win0_7.index _ (2 : Fin 3) * 128 ≤ (i 2).val ∧ (i 2).val < win0_7.index _ (2 : Fin 3) * 128 + 128; rw [hi.2.2]; omega

/-- Output array 0 after the run is `numArr` of the arguments. -/
theorem final7 (c : Dev nD) : (dats m 0 c).arrAt 7 cfg0.N
    = numArr (V m c main_arg0) (V m c main_arg1) (V m c main_arg2) (V m c main_arg3) (V m c main_arg4) (V m c main_arg5) (V m c main_arg6) :=
  (dats m 0 c).arrAt_eq_of_cover 7 _ (fun t _ => flushed7_eq m c t) (cover7)

/-- An index of output array 1 is in point `t`'s block iff each coordinate is in the block's range on its axis. -/
theorem mem_blk8 (t : Fin cfg0.N) (i : S32x1x128.Idx) :
    i ∈ ((cfg0.win 8).blk t).view.set ↔ ∀ a : Fin 3, win0_8.index t a * S1x1x128.size a ≤ (i a).val ∧ (i a).val < win0_8.index t a * S1x1x128.size a + S1x1x128.size a := by
  show i ∈ ((View.whole main_v0_1).slice (win0_8.rect t)).set ↔ _
  rw [View.set_slice_whole, Rect.mem_set_unit]
  exact Iff.rfl

/-- What point `t` writes back to output array 1 is block `t` of `denArr` of the arguments. -/
theorem flushed8_eq (c : Dev nD) (t : Fin cfg0.N) :
    (dats m 0 c).flushed 8 t = ((cfg0.win 8).blk t).view.read (Elt Ideal)
      (denArr (V m c main_arg0) (V m c main_arg1) (V m c main_arg2) (V m c main_arg3) (V m c main_arg4) (V m c main_arg5) (V m c main_arg6)) := by
  show (cfg0.win 8).cut (grid0.coords t) ((dats m 0 c).after 8 t) = _
  rw [after0_8]
  unfold out0_8
  rw [View.canon_unit_zero hz]
  simp only [View.ld_unit_zero (S := S1x512x512) hz]
  have hN : t.val < 32 := lt_of_lt_of_eq t.isLt N_0
  funext j
  rw [View.read_apply]
  have hi := (idx_facts t).2.2.2.2.2.2.2.2
  have he : (((cfg0.win 8).blk t).view.emb j 0).val = t.val := by
    show win0_8.index t (0 : Fin 3) * 1 + 1 * (j 0).val = t.val
    have hj : (j 0).val < 1 := (j 0).isLt
    rw [hi.1]; omega
  refine (den_blk (iblk m c 0 t) (iblk m c 1 t) (iblk m c 2 t) (iblk m c 3 t) (iblk m c 4 t) (iblk m c 5 t) (iblk m c 6 t)
    (V m c main_arg0) (V m c main_arg1) (V m c main_arg2) (V m c main_arg3) (V m c main_arg4) (V m c main_arg5) (V m c main_arg6)
    ⟨t.val, hN⟩ (iblk0_at m c t ⟨t.val, hN⟩ rfl) (iblk1_at m c t ⟨t.val, hN⟩ rfl) (iblk2_at m c t ⟨t.val, hN⟩ rfl)
    (iblk3_at m c t ⟨t.val, hN⟩ rfl) (iblk4_at m c t ⟨t.val, hN⟩ rfl) (iblk5_at m c t ⟨t.val, hN⟩ rfl) (iblk6_at m c t ⟨t.val, hN⟩ rfl) j).trans ?_
  show denSample _ _ _ _ _ _ _ ⟨t.val, hN⟩ = denSample _ _ _ _ _ _ _ ⟨(((cfg0.win 8).blk t).view.emb j 0).val, _⟩
  exact congrArg _ (Fin.ext he.symm)

/-- Every index of output array 1 is in the block of the point of its sample. -/
theorem cover8 (i : S32x1x128.Idx) : ∃ t : Fin cfg0.N, (cfg0.win 8).flush t = true ∧ i ∈ ((cfg0.win 8).blk t).view.set := by
  have h0 : (i 0).val < 32 := (i 0).isLt
  have h1 : (i 1).val < 1 := (i 1).isLt
  have h2 : (i 2).val < 128 := (i 2).isLt
  refine ⟨⟨(i 0).val, lt_of_lt_of_eq h0 N_0.symm⟩, flush0_8 _, ?_⟩
  rw [mem_blk8]
  have hi := (idx_facts ⟨(i 0).val, lt_of_lt_of_eq h0 N_0.symm⟩).2.2.2.2.2.2.2.2
  intro a
  match a with
  | ⟨0, _⟩ => show win0_8.index _ (0 : Fin 3) * 1 ≤ (i 0).val ∧ (i 0).val < win0_8.index _ (0 : Fin 3) * 1 + 1; rw [show win0_8.index _ (0 : Fin 3) = (i 0).val from hi.1]; omega
  | ⟨1, _⟩ => show win0_8.index _ (1 : Fin 3) * 1 ≤ (i 1).val ∧ (i 1).val < win0_8.index _ (1 : Fin 3) * 1 + 1; rw [hi.2.1]; omega
  | ⟨2, _⟩ => show win0_8.index _ (2 : Fin 3) * 128 ≤ (i 2).val ∧ (i 2).val < win0_8.index _ (2 : Fin 3) * 128 + 128; rw [hi.2.2]; omega

/-- Output array 1 after the run is `denArr` of the arguments. -/
theorem final8 (c : Dev nD) : (dats m 0 c).arrAt 8 cfg0.N
    = denArr (V m c main_arg0) (V m c main_arg1) (V m c main_arg2) (V m c main_arg3) (V m c main_arg4) (V m c main_arg5) (V m c main_arg6) :=
  (dats m 0 c).arrAt_eq_of_cover 8 _ (fun t _ => flushed8_eq m c t) (cover8)

end Cert.KernelIdeal.Blocks

end
-- ==== Proof.LibIdx1.lean ====
/-
  A rank-1 index set is its one coordinate's range, so a sum over the indices of a vector of length n is the sum over
  Fin n of the entries at `ix1`.  (The rank-2 form, `sum_idx2`, is in the library's Lib/ValueIdx.lean.)
-/
import Idealize.ShloMosaic.Lib.ValueIdx

noncomputable section

namespace Cert.Idx1

open Idealize.ShloMosaic Idealize.ShloMosaic.ValueIdx

/-- A rank-1 index set is the range of its one coordinate … -/
def idxEquiv1 {n : Nat} : (⟨1, ![n]⟩ : Shape).Idx ≃ Fin n where
  toFun i := i 0
  invFun a := ix1 a
  left_inv i := (eq_ix1 i).symm
  right_inv _ := rfl

/-- … so a sum over it is the sum over that coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

end Cert.Idx1

end
-- ==== Proof.KernelRun.lean ====
/-
  The kernel program's run, read.  After the region the host reads lane 0 of each row of the two output arrays, sums the
  32 entries of each from zero, adds the constant to the second sum and divides.  With the arrays of Blocks.lean — row b
  holds sample b's weighted loss, or weighted gated confidence, in every lane — that is the loss of MinedLoss.lean of
  the argument arrays.
-/
import proofs.«132666_j22436909154406_1_alg».proof.Proof.Blocks
import proofs.«132666_j22436909154406_1_alg».proof.Proof.LibIdx1
import Idealize.ShloMosaic.Lib.StableHlo.Run

noncomputable section

namespace Cert.KernelIdeal.Run

open Cert.KernelIdeal Cert.KernelIdeal.Gen Idealize.ShloMosaic Idealize.ShloMosaic.TcCoe Idealize.SL.Sem Idealize.ShloMosaic.ValueIdx
open Idealize.ShloMosaic.StableHlo
open Cert.MinedLoss Cert.KernelIdeal.Blocks Cert.Idx1

/-- The host's sum of a 32-entry vector from zero. -/
theorem sum32_apply (y : (⟨S32, .f32⟩ : BufTy).Contents (Elt Ideal)) (i : S_.Idx) :
    Host.reduceAdd (F := Ideal) y (constant (F := Ideal) S_ .f32 0x00000000#32) reducesTo_S32_S_d0 h_S_ i
      = Ideal.ofBits .f32 0x00000000#32 + ∑ b : Fin 32, y (ix1 b) := by
  simp only [Host.reduceAdd, Ideal.hostReduceAdd_def]
  refine (Ideal.hostReduceAdd_total reducesTo_S32_S_d0 (fun b => b.elim0) y _ i).trans ?_
  rw [sum_idx1]
  rfl

/-- Lane 0 of each row of a [32, 1, 128] array, as a 32-entry vector. -/
theorem lane0_apply (u : S32x1x128.Idx → EReal) (b : Fin 32) :
    shapeCast S32 (extractStridedSlice S32x1x1 ![0, 0, 0] u slices_S32x1x128_S32x1x1_0_0_0) shapeCasts_S32x1x1_S32 (ix1 b)
      = u (ix3 b (0 : Fin 1) (0 : Fin 128)) := by
  refine (shapeCast_apply _ shapeCasts_S32x1x1_S32 (ix1 b) (ix3 b (0 : Fin 1) (0 : Fin 1)) ?_).trans ?_
  · rw [Shape.rowMajor_val_three, Shape.rowMajor_val_one]
    show (b.val * 1 + 0) * 1 + 0 = b.val
    omega
  · refine extractStridedSlice_apply _ u _ _ (ix3 b (0 : Fin 1) (0 : Fin 128)) fun a => ?_
    match a with
    | ⟨0, _⟩ => show b.val = 0 + b.val; omega
    | ⟨1, _⟩ => rfl
    | ⟨2, _⟩ => rfl

/-- The host operations after the region, as one function of the two output arrays. -/
def tail (u v : S32x1x128.Idx → EReal) : S_.Idx → EReal :=
  Host.divf (F := Ideal)
    (Host.reduceAdd (F := Ideal) (shapeCast S32 (extractStridedSlice S32x1x1 ![0, 0, 0] u slices_S32x1x128_S32x1x1_0_0_0) shapeCasts_S32x1x1_S32)
      (constant (F := Ideal) S_ .f32 0x00000000#32) reducesTo_S32_S_d0 h_S_)
    (addf (Host.reduceAdd (F := Ideal) (shapeCast S32 (extractStridedSlice S32x1x1 ![0, 0, 0] v slices_S32x1x128_S32x1x1_0_0_0) shapeCasts_S32x1x1_S32)
      (constant (F := Ideal) S_ .f32 0x00000000#32) reducesTo_S32_S_d0 h_S_) (constant (F := Ideal) S_ .f32 0x33D6BF95#32))

/-- The tail of the two arrays of Blocks.lean is the loss. -/
theorem tail_arrs (a0 a1 a2 a3 a4 a5 a6 : Arr) :
    tail (numArr a0 a1 a2 a3 a4 a5 a6) (denArr a0 a1 a2 a3 a4 a5 a6) = fun _ => ratio a0 a1 a2 a3 a4 a5 a6 := by
  funext i
  show FloatOps.hostDivf (F := Ideal) (φ := .f32) (Host.reduceAdd (F := Ideal) _ _ reducesTo_S32_S_d0 h_S_ i)
    (Host.reduceAdd (F := Ideal) _ _ reducesTo_S32_S_d0 h_S_ i + Ideal.ofBits .f32 0x33D6BF95#32) = _
  rw [sum32_apply, sum32_apply]
  simp only [lane0_apply]
  rfl

variable (m : (ℓ : Loc nD τ sig) → Buf (Elt Ideal) ℓ) (ρ : Dev nD → PrngReg)

/-- @main's result after the run is the loss of the argument arrays. -/
theorem tail_value (c : Dev nD) :
    Pipeline.afterTail₀ cfgs (dats m) 0 (V0 m) [hostOps1] c main_v8
      = fun _ => ratio (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  have e7 : Pipeline.withArrays (cfgs 0).spec c (V0 m c) (fun w => (dats m 0 c).arrAt w (cfgs 0).N) (Proc.tc.devRef main_v0_0)
      = numArr (V m c main_arg0) (V m c main_arg1) (V m c main_arg2) (V m c main_arg3) (V m c main_arg4) (V m c main_arg5) (V m c main_arg6) :=
    (Pipeline.withArrays_arr spec0 launch0.win.arr_inj c _ _ 7).trans (final7 m c)
  have e8 : Pipeline.withArrays (cfgs 0).spec c (V0 m c) (fun w => (dats m 0 c).arrAt w (cfgs 0).N) (Proc.tc.devRef main_v0_1)
      = denArr (V m c main_arg0) (V m c main_arg1) (V m c main_arg2) (V m c main_arg3) (V m c main_arg4) (V m c main_arg5) (V m c main_arg6) :=
    (Pipeline.withArrays_arr spec0 launch0.win.arr_inj c _ _ 8).trans (final8 m c)
  unfold Pipeline.afterTail₀
  show StableHlo.after hostOps1 _ (Proc.devRef .tc main_v8) = _
  after_results
  show tail (Pipeline.withArrays (cfgs 0).spec c (V0 m c) (fun w => (dats m 0 c).arrAt w (cfgs 0).N) (Proc.tc.devRef main_v0_0))
    (Pipeline.withArrays (cfgs 0).spec c (V0 m c) (fun w => (dats m 0 c).arrAt w (cfgs 0).N) (Proc.tc.devRef main_v0_1)) = _
  rw [e7, e8]
  exact tail_arrs _ _ _ _ _ _ _

/-- The run: the result at the loss of the argument arrays, the arguments unchanged. -/
theorem run : θ_run defs (onTc (τ := τ) (main (F := Ideal))) ⟨m, fun _ => 0, ρ⟩ fun r => ∀ c : Dev nD,
      r.2.mem ((c : Thread nD τ).loc main_v8)
        = (fun _ => ratio (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c =>
    ⟨((h c).2 main_v8 (Pipeline.mem_restRefs_of main_v8 rfl (by decide))).trans (tail_value m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c)))⟩)
    (run_main m ρ)

end Cert.KernelIdeal.Run

end
-- ==== Proof.lean ====
/- The proof of `Cert.Claim`: a mined masked L1 loss over 32 samples of 512 × 512 pixels, computed sample by sample by a
   kernel whose host lines add the 32 partial sums and divide, against the same loss computed over the whole arrays.

   At the extended reals both programs compute one number (Proof/MinedLoss.lean): the weighted sum of the pixels' losses
   over the weighted sum of the gated confidences plus a constant, where a pixel's weight is the foreground mask plus
   the indicator that its background mask is positive and its background-masked loss reaches its sample's largest one.
   The two sides differ only in how they group: the kernel takes a sample's maximum over the columns and then the rows
   and the reference over the flattened sample (one supremum either way), and the kernel sums row by row, sample by
   sample and then over the samples where the reference sums over all indices at once (addition of extended reals is
   commutative and associative, so the sums agree with no finiteness needed); the indicator is a choice between one
   and zero on one side and a one-bit word read as a float on the other.

   Proof/RefLoss.lean reads the reference's operations at a pixel and shows its result is that number;
   Proof/SampleBody.lean reads the kernel body's stored values from one sample's blocks, Proof/Blocks.lean carries them
   to the two output arrays after the run, Proof/KernelRun.lean reads the host lines after the region.  The frames of
   the two kernel programs are the generated ones, the reference's frame is its generated run; the idealization rewrote
   nothing, so `preserves` is trivial. -/
import proofs.«132666_j22436909154406_1_alg».proof.Defs
import proofs.«132666_j22436909154406_1_alg».proof.Proof.Gen.Kernel
import proofs.«132666_j22436909154406_1_alg».proof.Proof.Gen.Kernel.Skeleton
import proofs.«132666_j22436909154406_1_alg».proof.Proof.Gen.Kernel.Launch
import proofs.«132666_j22436909154406_1_alg».proof.Proof.Gen.Kernel.Points
import proofs.«132666_j22436909154406_1_alg».proof.Proof.Gen.Kernel.Frame
import proofs.«132666_j22436909154406_1_alg».proof.Proof.Gen.KernelIdeal
import proofs.«132666_j22436909154406_1_alg».proof.Proof.Gen.KernelIdeal.Skeleton
import proofs.«132666_j22436909154406_1_alg».proof.Proof.Gen.KernelIdeal.Launch
import proofs.«132666_j22436909154406_1_alg».proof.Proof.Gen.KernelIdeal.Points
import proofs.«132666_j22436909154406_1_alg».proof.Proof.Gen.KernelIdeal.Frame
import proofs.«132666_j22436909154406_1_alg».proof.Proof.Gen.ReferenceIdeal
import proofs.«132666_j22436909154406_1_alg».proof.Proof.Gen.ReferenceIdeal.Run
import proofs.«132666_j22436909154406_1_alg».proof.Proof.Gen.ReferenceIdeal.Read
import proofs.«132666_j22436909154406_1_alg».proof.Proof.Gen.Pre_finite_inputs
import proofs.«132666_j22436909154406_1_alg».proof.Proof.RefLoss
import proofs.«132666_j22436909154406_1_alg».proof.Proof.KernelRun
import Idealize.ShloMosaic.Adequacy
import Idealize.ShloMosaic.Init

noncomputable section

namespace Cert.Proof

open Idealize.ShloMosaic Idealize.SL.Sem Cert.Kernel

/-- The word-level kernel program runs and keeps its arguments: the generated frame. -/
theorem frame_kernel : Cert.frame_Kernel := fun m ρ _ => Cert.Kernel.Gen.frame m ρ

/-- The idealized kernel program runs and keeps its arguments: the generated frame. -/
theorem frame_kernelIdeal : Cert.frame_KernelIdeal := fun m ρ _ => Cert.KernelIdeal.Gen.frame m ρ

/-- The reference runs and keeps its arguments: its generated run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the seven arguments both programs end with the loss of those arguments. -/
theorem algebraic : Cert.algebraic_KernelIdeal_ReferenceIdeal := by
  intro m ρ m' ρ' _ hagree
  refine ⟨_, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, Cert.ReferenceIdeal.RefValue.result_eq]
  obtain ⟨e0, e1, e2, e3, e4, e5, e6⟩ := hagree c
  rw [e0, e1, e2, e3, e4, e5, e6]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
